-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn_part1 {F : FTy → Type} [FloatOps F] (main_arg1 : FVec F S8192x8192 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S8192x8192 32 := iotaInDim S8192x8192 32 0
  let main_v20 : IVec S8192x8192 32 := iotaInDim S8192x8192 32 1
  let main_c_6 : IVec S_ 32 := constantI S_ 32 0#32
  let main_v21 : IVec S8192x8192 32 := broadcastInDim S8192x8192 ![] bcast_S_S8192x8192 main_c_6
  let main_v22 : IVec S8192x8192 32 := addi main_v19 main_v21
  let main_v23 : IVec S8192x8192 1 := cmpi .eq main_v22 main_v20
  let main_v24 : FVec F S8192x8192 .f32 := uitofp .f32 main_v23
  let main_v25 : FVec F S8192x8192 .f32 := addf main_arg1 main_v24
  let main_cst_7 : FVec F S_ .f32 := constant S_ .f32 0x00000000#32
  let main_v26 : FVec F S8192 .f32 := (fun x v => Host.reduceAdd x v reducesTo_S8192x8192_S8192_d1 h_S_) main_v25 main_cst_7
  let main_cst_8 : FVec F S_ .f32 := constant S_ .f32 0x00000000#32
  let main_v27 : FVec F S8192 .f32 := broadcastInDim S8192 ![] bcast_S_S8192 main_cst_8
  let main_v28 : IVec S8192 1 := cmpf .une main_v26 main_v27
  let main_c_9 : IVec S_ 1 := constantI S_ 1 1#1
  let main_v29 : IVec S_ 1 := (fun x v => Host.reduce IntOp.andi x v reducesTo_S8192_S_d0 h_S_) main_v28 main_c_9
  let main_v30 : IVec S_ 1 := andi main_v18 main_v29
  main_v30

def fn {F : FTy → Type} [FloatOps F] (main_arg0 : FVec F S8192x256 .f32) (main_arg1 : FVec F S8192x8192 .f32) (main_arg2 : FVec F S256x256 .f32) (main_arg3 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S1024x1024 : Shape := ⟨2, ![1024, 1024]⟩
abbrev S1024x256 : Shape := ⟨2, ![1024, 256]⟩
abbrev S1024x1 : Shape := ⟨2, ![1024, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8192x256, .f32⟩
  | .local _ .vmem, ⟨0, _⟩ => ⟨S8192x256, .f32⟩
  | .local _ .vmem, ⟨1, _⟩ => ⟨S256x256, .f32⟩
  | .local _ .vmem, ⟨2, _⟩ => ⟨S1024x1024, .f32⟩
  | .local _ .vmem, ⟨3, _⟩ => ⟨S1024x1024, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1, .f32⟩
  | .local _ .vmem, ⟨9, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg0 : BitVec 32 := BitVec.ofNat 32 (i 0).val
  let c1024_i32_22 : BitVec 32 := 1024#32
  let v38 : BitVec 32 := Scalar.muli arg0 c1024_i32_22
  v38
def k0_off1 (i : grid0.Coords) : Fin 2 → Nat :=
  let arg0 : BitVec 32 := BitVec.ofNat 32 (i 0).val
  let c1024_i32_22 : BitVec 32 := 1024#32
  let v38 : BitVec 32 := Scalar.muli arg0 c1024_i32_22
  let v39 : BitVec 32 := v38
  let v40 : Index := Scalar.indexCast v39
  let c0_23 : Index := 0#32
  ![v40.toNat, 0]
def k0_mult2 (i : grid0.Coords) : BitVec 32 :=
  let arg1 : BitVec 32 := BitVec.ofNat 32 (i 1).val
  let c1024_i32 : BitVec 32 := 1024#32
  let v11 : BitVec 32 := Scalar.muli arg1 c1024_i32
  v11
def k0_off2 (i : grid0.Coords) : Fin 2 → Nat :=
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_6 : Index := 0#32
  ![v13.toNat, 0]
def k0_cond2 (i : grid0.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x256 : S1024x1.Broadcasts S1024x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  k0_mult1_dvd : ∀ i : grid0.Coords, ∀ (k0_h1 : k0_cond1 i = 1#1), 8 ∣ (k0_mult1 i).toNat
  k0_off1_inb : ∀ i : grid0.Coords, ∀ (k0_h1 : k0_cond1 i = 1#1), ∀ a, (k0_off1 i) a + S1024x256.size a ≤ S8192x256.size a
  k0_mult2_dvd : ∀ i : grid0.Coords, 8 ∣ (k0_mult2 i).toNat
  k0_off2_inb : ∀ i : grid0.Coords, ∀ a, (k0_off2 i) a + S1024x256.size a ≤ S8192x256.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S8192x256.size a
  hwx0_0 : ∀ i : grid0.Coords, EltTy.bits .f32 = 32 ∨ (Rect.block (s := S8192x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S8192x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩
abbrev S8192 : Shape := ⟨1, ![8192]⟩
abbrev S8192x1 : Shape := ⟨2, ![8192, 1]⟩
abbrev S1x256 : Shape := ⟨2, ![1, 256]⟩

abbrev nBuf : Space → Nat
  | .hbm => 23
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S8192x8192, .i32⟩
  | .hbm, ⟨5, _⟩ => ⟨S8192x8192, .i32⟩
  | .hbm, ⟨6, _⟩ => ⟨S_, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x256, .f32⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf

class Facts : Prop extends Facts₀ where

variable [Facts]
-- ==== Proof.Spec.lean ====
/-
  The row-normalised graph convolution as ONE function of its four argument arrays, in the two arrangements the two
  programs compute it, index by index over the extended reals.

  With X the node features [8192, 256], A the adjacency [8192, 8192], W the weights [256, 256], b the bias [256], and
  S = X·W the support (S[c,h] = Σ_j X[c,j]·W[j,h]):

  * `fused`       : tanh( (Σ_c A[r,c]·S[c,h] + S[r,h]) / (Σ_c A[r,c] + 1) + b[h] )
                     — the self loop added to the numerator and to the degree separately, ONE division per entry;
  * `normalized`  : tanh( Σ_c ((A[r,c] + I[r,c]) / d[r]) · S[c,h] + b[h] ),  d[r] = Σ_c (A[r,c] + I[r,c])
                     — the adjacency with self loops divided entry by entry by its row sum, then contracted.

  The two agree where every entry is a real number and no row sum d[r] is zero: there the quotient is the real
  quotient and distributes over the finite sum. (At d[r] = 0 they differ: x / 0 is an infinity or the junk value
  on the extended reals, and the sum of a row of such quotients is not the quotient of the sum.)
-/
import Idealize.ShloMosaic.PureOps.Ideal
import Idealize.ShloMosaic.Lib.ValueIdx

noncomputable section

namespace Cert.Gcn

open Idealize.ShloMosaic Idealize.ShloMosaic.ValueIdx

/-- Node features, and the result: [8192, 256]. -/
abbrev SFeat : Shape := ⟨2, ![8192, 256]⟩
/-- The adjacency: [8192, 8192]. -/
abbrev SAdj : Shape := ⟨2, ![8192, 8192]⟩
/-- The weights: [256, 256]. -/
abbrev SWgt : Shape := ⟨2, ![256, 256]⟩
/-- The bias: [256]. -/
abbrev SBias : Shape := ⟨1, ![256]⟩

/-- Entry (c, h) of the support X·W. -/
def support (X : SFeat.Idx → EReal) (W : SWgt.Idx → EReal) (c : Fin 8192) (h : Fin 256) : EReal :=
  ∑ j : Fin 256, X (ix2 c j) * W (ix2 j h)

/-- Entry (r, c) of the identity matrix. -/
def eye (r c : Fin 8192) : EReal := if r = c then 1 else 0

/-- Row r's degree with the self loop: the row sum of A + I. -/
def degree (A : SAdj.Idx → EReal) (r : Fin 8192) : EReal := ∑ c : Fin 8192, (A (ix2 r c) + eye r c)

/-- Entry (r, h) of the fused arrangement. -/
def fusedAt (X : SFeat.Idx → EReal) (A : SAdj.Idx → EReal) (W : SWgt.Idx → EReal) (b : SBias.Idx → EReal)
    (r : Fin 8192) (h : Fin 256) : EReal :=
  Ideal.tanh (Ideal.div ((∑ c : Fin 8192, A (ix2 r c) * support X W c h) + support X W r h)
    ((∑ c : Fin 8192, A (ix2 r c)) + 1) + b (ix1 h))

/-- Entry (r, h) of the normalised arrangement. -/
def normalizedAt (X : SFeat.Idx → EReal) (A : SAdj.Idx → EReal) (W : SWgt.Idx → EReal) (b : SBias.Idx → EReal)
    (r : Fin 8192) (h : Fin 256) : EReal :=
  Ideal.tanh ((∑ c : Fin 8192, Ideal.div (A (ix2 r c) + eye r c) (degree A r) * support X W c h) + b (ix1 h))

/-- The fused arrangement as an array. -/
def fused (X : SFeat.Idx → EReal) (A : SAdj.Idx → EReal) (W : SWgt.Idx → EReal) (b : SBias.Idx → EReal) :
    SFeat.Idx → EReal := fun i => fusedAt X A W b (i 0) (i 1)

/-- The normalised arrangement as an array. -/
def normalized (X : SFeat.Idx → EReal) (A : SAdj.Idx → EReal) (W : SWgt.Idx → EReal) (b : SBias.Idx → EReal) :
    SFeat.Idx → EReal := fun i => normalizedAt X A W b (i 0) (i 1)

/-- Every entry of an array is a real number. -/
def AllReal {S : Shape} (x : S.Idx → EReal) : Prop := ∀ i, ∃ v : ℝ, x i = (v : EReal)

/-- Column c' of column block k of the adjacency's 8 × 1024 column tiling. -/
def blockCol (k : Fin 8) (c : Fin 1024) : Fin 8192 := ⟨1024 * k.val + c.val, by have := k.isLt; have := c.isLt; omega⟩

/-- STATEMENT (the law joining the two arrangements): on real entries with no zero degree they are one array. -/
def FusedEqNormalized : Prop :=
  ∀ (X : SFeat.Idx → EReal) (A : SAdj.Idx → EReal) (W : SWgt.Idx → EReal) (b : SBias.Idx → EReal),
    AllReal X → AllReal A → AllReal W → AllReal b → (∀ r, degree A r ≠ 0) → fused X A W b = normalized X A W b

/-- STATEMENT (regrouping, no finiteness needed): a sum over the 8192 columns is the sum over the 8 column blocks
    of the sums inside each block. -/
def SumByBlocks : Prop :=
  ∀ f : Fin 8192 → EReal, (∑ k : Fin 8, ∑ c : Fin 1024, f (blockCol k c)) = ∑ c : Fin 8192, f c

end Cert.Gcn

end
-- ==== Proof.Algebra.lean ====
/-
  The algebra joining the two arrangements of the row-normalised graph convolution, and the regrouping of a sum
  over 8192 columns into 8 blocks of 1024.

  * On real entries with a nonzero row sum d, dividing by d is multiplying by the real 1/d, and
      (Σ_c a_c·s_c + s_r)·(1/d) = Σ_c ((a_c + I_rc)·(1/d))·s_c
    by distributivity in ℝ; the identity's row contributes exactly the r-th term.
  * Fin 8 × Fin 1024 ≃ Fin 8192 by (k, c) ↦ 1024·k + c, so a sum over the columns is the double sum over blocks.
-/
import proofs.«132413_j75728863363703_2_alg».proof.Proof.Spec
import Mathlib.Logic.Equiv.Fin.Basic
import Mathlib.Algebra.BigOperators.Fin
import Mathlib.Tactic.Ring

noncomputable section

namespace Cert.Gcn

open Idealize.ShloMosaic Idealize.ShloMosaic.ValueIdx

/-- The coercion ℝ → EReal commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity's entry, real or extended real, is the same number. -/
theorem coe_ite01 (P : Prop) [Decidable P] :
    (((if P then (1 : ℝ) else 0 : ℝ)) : EReal) = if P then (1 : EReal) else 0 := by
  split_ifs <;> simp

/-- The row sum of A + I is the row sum of A plus one (in ℝ). -/
theorem real_degree {ι : Type*} [Fintype ι] [DecidableEq ι] (a : ι → ℝ) (r : ι) :
    (∑ c, (a c + if r = c then (1 : ℝ) else 0)) = (∑ c, a c) + 1 := by
  rw [Finset.sum_add_distrib, Finset.sum_ite_eq]
  simp

/-- The core identity in ℝ: the single division of the fused form distributes over the sum. -/
theorem core_real {ι : Type*} [Fintype ι] [DecidableEq ι] (a p : ι → ℝ) (r : ι) (t : ℝ) :
    ((∑ c, a c * p c) + p r) * t = ∑ c, ((a c + if r = c then (1 : ℝ) else 0) * t) * p c := by
  have h : ∀ c, ((a c + if r = c then (1 : ℝ) else 0) * t) * p c
      = (a c * p c) * t + (if r = c then p c * t else 0) := by
    intro c; split_ifs <;> ring
  simp_rw [h]
  rw [Finset.sum_add_distrib, Finset.sum_ite_eq, ← Finset.sum_mul]
  simp only [Finset.mem_univ, if_true]
  ring

/-- The core identity on the extended reals, for real entries and a nonzero row sum. -/
theorem core_ereal {ι : Type*} [Fintype ι] [DecidableEq ι] (a p : ι → ℝ) (r : ι)
    (hd : (∑ c, ((a c : EReal) + if r = c then (1 : EReal) else 0)) ≠ 0) :
    Ideal.div ((∑ c, (a c : EReal) * (p c : EReal)) + (p r : EReal)) ((∑ c, (a c : EReal)) + 1)
      = ∑ c, Ideal.div ((a c : EReal) + if r = c then (1 : EReal) else 0)
          (∑ c', ((a c' : EReal) + if r = c' then (1 : EReal) else 0)) * (p c : EReal) := by
  -- the row sum is the real number d
  have hD : (∑ c, ((a c : EReal) + if r = c then (1 : EReal) else 0))
      = (((∑ c, (a c + if r = c then (1 : ℝ) else 0)) : ℝ) : EReal) := by
    rw [coe_sum]
    refine Finset.sum_congr rfl fun c _ => ?_
    rw [EReal.coe_add, coe_ite01]
  have hD' : (∑ c, (a c : EReal)) + 1
      = (((∑ c, (a c + if r = c then (1 : ℝ) else 0)) : ℝ) : EReal) := by
    rw [real_degree, EReal.coe_add, coe_sum, EReal.coe_one]
  have hd0 : (∑ c, (a c + if r = c then (1 : ℝ) else 0)) ≠ 0 := by
    intro h0
    apply hd
    rw [hD, h0, EReal.coe_zero]
  rw [hD', hD]
  simp only [Ideal.div_coe hd0]
  have key := congrArg (fun x : ℝ => (x : EReal))
    (core_real a p r (1 / (∑ c, (a c + if r = c then (1 : ℝ) else 0))))
  simp only [EReal.coe_mul, EReal.coe_add, coe_sum, coe_ite01] at key
  exact key

/-- The support of real features and real weights is real. -/
theorem support_real (X : SFeat.Idx → EReal) (W : SWgt.Idx → EReal) (x : SFeat.Idx → ℝ) (w : SWgt.Idx → ℝ)
    (hx : ∀ i, X i = (x i : EReal)) (hw : ∀ i, W i = (w i : EReal)) (c : Fin 8192) (h : Fin 256) :
    support X W c h = (((∑ j : Fin 256, x (ix2 c j) * w (ix2 j h)) : ℝ) : EReal) := by
  unfold support
  rw [coe_sum]
  refine Finset.sum_congr rfl fun j _ => ?_
  rw [hx, hw, EReal.coe_mul]

/-- The two arrangements agree entry by entry. -/
theorem at_eq (X : SFeat.Idx → EReal) (A : SAdj.Idx → EReal) (W : SWgt.Idx → EReal) (b : SBias.Idx → EReal)
    (hX : AllReal X) (hA : AllReal A) (hW : AllReal W) (hdeg : ∀ r, degree A r ≠ 0)
    (r : Fin 8192) (h : Fin 256) : fusedAt X A W b r h = normalizedAt X A W b r h := by
  choose x hx using hX
  choose a ha using hA
  choose w hw using hW
  have hd := hdeg r
  unfold degree eye at hd
  unfold fusedAt normalizedAt degree eye
  simp only [ha, support_real X W x w hx hw] at hd ⊢
  refine congrArg (fun t => Ideal.tanh (t + b (ix1 h))) ?_
  exact core_ereal (fun c => a (ix2 r c)) (fun c => ∑ j : Fin 256, x (ix2 c j) * w (ix2 j h)) r hd

theorem fused_eq_normalized : FusedEqNormalized := by
  intro X A W b hX hA hW _ hdeg
  funext i
  exact at_eq X A W b hX hA hW hdeg (i 0) (i 1)

/-- Regrouping a sum over Fin (m * n) into m blocks of n, in any additive commutative monoid. -/
theorem sum_blocks_gen {M : Type*} [AddCommMonoid M] (m n : ℕ) (g : Fin (m * n) → M) :
    (∑ k : Fin m, ∑ c : Fin n, g (finProdFinEquiv (k, c))) = ∑ x : Fin (m * n), g x := by
  rw [← Fintype.sum_prod_type' (fun k c => g (finProdFinEquiv (k, c)))]
  exact Equiv.sum_comp finProdFinEquiv g

theorem sum_by_blocks : SumByBlocks := by
  intro f
  have key := sum_blocks_gen (M := EReal) 8 1024 f
  rw [← key]
  refine Finset.sum_congr rfl fun k _ => Finset.sum_congr rfl fun c _ => ?_
  congr 1
  exact Fin.ext (Nat.add_comm _ _)

end Cert.Gcn

end
-- ==== Proof.PreFacts.lean ====
/-
  What the precondition gives. The precondition is a conjunction of five all-reductions by "and", claimed equal to 1:
  for each of the four arrays X [8192, 256], A [8192, 8192], W [256, 256], b [256], every entry x has |x| < +∞, where
  |x| = max x (-x) on the extended reals — so x is neither ⊥ nor ⊤, a real number; and for every row r the sum over c
  of A[r,c] + I[r,c], taken from 0, is not equal to 0, where I[r,c] is the number of the one-bit word "r + 0 = c" on
  32-bit words of the two coordinates — coordinates below 8192 < 2^32 have equal words exactly when they are equal, so
  I is the identity matrix and the row sum is the degree of row r.
-/
import proofs.«132413_j75728863363703_2_alg».proof.Pre_finite_inputs
import proofs.«132413_j75728863363703_2_alg».proof.Proof.Spec
import Idealize.ShloMosaic.Lib.ReduceAll
import Idealize.ShloMosaic.Lib.ValueIdx
import Idealize.ShloMosaic.Lib.IdealHost
import Idealize.ShloMosaic.PureOps.Ideal.Laws

noncomputable section

namespace Cert.Gcn

open Idealize.ShloMosaic Idealize.ShloMosaic.ValueIdx
open scoped BigOperators

namespace PreFacts

/-- The rank-0 shape has one index. -/
instance subsingleton_idx_rank0 : Subsingleton Cert.Pre_finite_inputs.S_.Idx := ⟨fun a b => funext fun d => d.elim0⟩

/-- The f32 pattern 0x7F800000 is +∞. -/
theorem inf_f32 : Ideal.ofBits .f32 0x7F800000#32 = (⊤ : EReal) := by simp [Ideal.ofBits, Ideal.ieee]

/-- An extended real x with max x (-x) < +∞ is a real number: at ⊥ and at ⊤ the maximum is ⊤. -/
theorem real_of_abs_lt_top (x : EReal) (h : Ideal.cmp .olt (max x (-x)) (Ideal.ofBits .f32 0x7F800000#32) = 1#1) :
    ∃ v : ℝ, x = (v : EReal) := by
  rw [inf_f32] at h
  induction x using EReal.rec with
  | bot => simp [Ideal.cmp] at h
  | coe v => exact ⟨v, rfl⟩
  | top => simp [Ideal.cmp] at h

/-- An all-reduction by "and" of the comparisons |x i| < +∞ that answers 1 makes every entry a real number. -/
theorem allReal_of_all {S : Shape} {axes : List (Fin S.rank)} (x : FVec Ideal S .f32)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
        (cmpf .olt (Host.absf x) (broadcastInDim S ![] hb (constant Cert.Pre_finite_inputs.S_ .f32 0x7F800000#32)))
        (constantI Cert.Pre_finite_inputs.S_ 1 1#1) hr hu ix0 = 1#1) :
    AllReal (S := S) x := by
  intro i
  have hi := Host.reduce_andi_all _ _ hr hu ix0 e i
  exact real_of_abs_lt_top (x i) hi

/-- Words of two coordinates below 8192 are equal exactly when the coordinates are: the identity entry read as a number. -/
theorem eye_word (r c : Fin 8192) :
    (((IntOp.cmpi .eq (IntOp.addi (BitVec.ofNat 32 r.val) 0#32) (BitVec.ofNat 32 c.val)).toNat : ℝ) : EReal) = eye r c := by
  have hr := r.isLt
  have hc := c.isLt
  unfold eye
  by_cases e : r = c
  · subst e; simp [IntOp.cmpi, IntOp.addi]
  · have hne : BitVec.ofNat 32 r.val ≠ BitVec.ofNat 32 c.val := by
      intro hh
      have h2 := congrArg BitVec.toNat hh
      simp only [BitVec.toNat_ofNat] at h2
      rw [Nat.mod_eq_of_lt (by omega), Nat.mod_eq_of_lt (by omega)] at h2
      exact e (Fin.ext h2)
    simp [IntOp.cmpi, IntOp.addi, hne, e]

/-- The row sum over axis 1 of A + I at row r, from the zero constant, is the degree of row r. -/
theorem rowsum_eq_degree (A : FVec Ideal Cert.Pre_finite_inputs.S8192x8192 .f32)
    (hb : Cert.Pre_finite_inputs.S_.BroadcastsInDim Cert.Pre_finite_inputs.S8192x8192 (![] : Fin 0 → Fin Cert.Pre_finite_inputs.S8192x8192.rank))
    (hr : Cert.Pre_finite_inputs.S8192x8192.ReducesTo [1] Cert.Pre_finite_inputs.S8192)
    (hu : 0 < Cert.Pre_finite_inputs.S_.numel) (r : Fin 8192) :
    Host.reduceAdd
      (addf A (uitofp .f32 (cmpi .eq
        (addi (iotaInDim Cert.Pre_finite_inputs.S8192x8192 32 0)
          (broadcastInDim Cert.Pre_finite_inputs.S8192x8192 ![] hb (constantI Cert.Pre_finite_inputs.S_ 32 0#32)))
        (iotaInDim Cert.Pre_finite_inputs.S8192x8192 32 1))))
      (constant Cert.Pre_finite_inputs.S_ .f32 0x00000000#32) hr hu (ix1 r) = degree (A := A) r := by
  have hR : Cert.Pre_finite_inputs.S8192x8192.Reduces [1] Cert.Pre_finite_inputs.S8192 := by decide
  rw [hostReduceAdd_apply, Ideal.hostReduceAdd_single hr hR]
  have h0 : (constant (F := Ideal) Cert.Pre_finite_inputs.S_ .f32 0x00000000#32) (Shape.Idx.first hu) = (0 : EReal) :=
    Ideal.ofBits_zero_f32
  rw [h0, zero_add]
  unfold degree
  refine Finset.sum_congr rfl (fun c _ => ?_)
  have hl : hR.lift (ix1 r) c = ix2 r c := by
    funext d
    fin_cases d <;> rfl
  rw [hl]
  show A (ix2 r c) + _ = A (ix2 r c) + eye r c
  exact congrArg (A (ix2 r c) + ·) (eye_word r c)

/-- The comparison "not equal" against the f32 zero pattern that answers 1 says the value is not zero. -/
theorem ne_zero_of_une (x : EReal) (h : Ideal.cmp .une x (Ideal.ofBits .f32 0x00000000#32) = 1#1) : x ≠ 0 := by
  rw [Ideal.ofBits_zero_f32] at h
  intro hx
  rw [hx] at h
  simp [Ideal.cmp] at h

end PreFacts

open PreFacts in
/-- WHAT THE PRECONDITION GIVES: every entry of the four arrays is a real number and no row of A + I sums to zero. -/
theorem domain_of_pre [Cert.Pre_finite_inputs.Facts]
    (X : FVec Ideal Cert.Pre_finite_inputs.S8192x256 .f32) (A : FVec Ideal Cert.Pre_finite_inputs.S8192x8192 .f32)
    (W : FVec Ideal Cert.Pre_finite_inputs.S256x256 .f32) (b : FVec Ideal Cert.Pre_finite_inputs.S256 .f32)
    (h : Cert.Pre_finite_inputs.fn (F := Ideal) X A W b = fun _ => 1#1) :
    AllReal (S := SFeat) X ∧ AllReal (S := SAdj) A ∧ AllReal (S := SWgt) W ∧ AllReal (S := SBias) b ∧
      ∀ r : Fin 8192, degree A r ≠ 0 := by
  -- the claim at the one index of the rank-0 result, its chain of operations unfolded, the conjunctions split
  have e := congrFun h ix0
  dsimp only [Cert.Pre_finite_inputs.fn, Cert.Pre_finite_inputs.fn_part1] at e
  simp only [andi, IntOp.andi_eq_one] at e
  obtain ⟨⟨⟨⟨hX, hA⟩, hW⟩, hb⟩, hd⟩ := e
  refine ⟨allReal_of_all X _ _ _ hX, allReal_of_all A _ _ _ hA, allReal_of_all W _ _ _ hW,
    allReal_of_all b _ _ _ hb, fun r => ?_⟩
  -- row r's comparison is 1: its row sum, the degree, is not zero
  have hi := Host.reduce_andi_all _ _ _ _ ix0 hd (ix1 r)
  have hne := ne_zero_of_une _ hi
  rwa [rowsum_eq_degree] at hne

end Cert.Gcn

end
-- ==== Proof.KernelPieces.lean ====
/-
  What one grid point of the fused graph-convolution body leaves behind, case by case, as pure functions of the
  blocks it was handed and of what the point before left.

  The body keeps three values across the eight column blocks k = 0..7 of one row block: the running product
  `acc` (rows of A·S seen so far), the running row sum `deg`, and the row block's own rows of the support
  `self`. At k = 0 it clears `acc` and `deg` and computes `self`; at every k it adds this column block's
  row sums to `deg` and this column block's product with the matching rows of the support to `acc`; at k = 7
  it also writes tanh((acc + self) / (deg + 1) + b) to the output block. Each lemma below reads one of those
  stores back as the corresponding payload term.
-/
import proofs.«132413_j75728863363703_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem Idealize.ShloMosaic.Tactic

variable {F : FTy → Type} [FloatOps F]

/-- A rank-2 offset written `![0, 0]` is the zero offset. -/
theorem hz2 : (![0, 0] : Fin 2 → Nat) = fun _ => 0 := by
  funext a; match a with | ⟨0, _⟩ => rfl | ⟨1, _⟩ => rfl

/-- The rows of the features that column block k of the adjacency meets: rows 1024·k … 1024·k + 1023. -/
abbrev colRows (i : grid0.Coords) (x0 : Vec F S8192x256 .f32) : Vec F S1024x256 .f32 :=
  View.ld x0 (Rect.unit (k0_off2 i) S1024x256.size (k0_off2_inb i))

/-- The rows of the features of the row block itself: rows 1024·i … 1024·i + 1023 (read only at k = 0). -/
abbrev selfRows (i : grid0.Coords) (hc0 : cond0_0 i) (x0 : Vec F S8192x256 .f32) : Vec F S1024x256 .f32 :=
  View.ld x0 (Rect.unit (k0_off1 i) S1024x256.size (k0_off1_inb i hc0))

/-! ## k = 0: clear, then the first step -/

/-- The running product after the first column block: the step applied to the cleared accumulator. -/
theorem first_acc (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i) (x0 : Vec F S8192x256 .f32) (x1 : Vec F S256x256 .f32) (x2 : Vec F S1024x1024 .f32) (x3 : Vec F S1x256 .f32) :
    sout0_A_0 c i arg2 harg2 arg3 harg3 arg4 harg4 arg5 harg5 arg6 harg6 arg7 harg7 arg8 harg8 arg9 harg9 hc0 hc1 x0 x1 x2 x3 = k0_pay5 x2 (colRows i x0) x1 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readCov_unit_zero (S := S1024x256) arg7.view hz2, View.readAt_eq_ld, harg2.read_unread, harg3.read_unread,
    harg4.read_unread, View.ld_unit_zero (S := S1024x1024) hz2, View.ld_unit_zero (S := S256x256) hz2]
  try rfl

/-- The running row sum after the first column block: the step applied to the cleared sum. -/
theorem first_deg (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i) (x0 : Vec F S8192x256 .f32) (x1 : Vec F S256x256 .f32) (x2 : Vec F S1024x1024 .f32) (x3 : Vec F S1x256 .f32) :
    sout0_A_1 c i arg2 harg2 arg3 harg3 arg4 harg4 arg5 harg5 arg6 harg6 arg7 harg7 arg8 harg8 arg9 harg9 hc0 hc1 x0 x1 x2 x3 = k0_pay4 x2 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero hz2]
  simp only [View.readCov_unit_zero (S := S1024x1) arg8.view hz2, View.readAt_eq_ld, harg4.read_unread,
    View.ld_unit_zero (S := S1024x1024) hz2]
  try rfl

/-- The row block's own rows of the support, computed once at k = 0. -/
theorem first_self (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : cond0_0 i) (hc1 : ¬cond0_1 i) (x0 : Vec F S8192x256 .f32) (x1 : Vec F S256x256 .f32) (x2 : Vec F S1024x1024 .f32) (x3 : Vec F S1x256 .f32) :
    sout0_A_2 c i arg2 harg2 arg3 harg3 arg4 harg4 arg5 harg5 arg6 harg6 arg7 harg7 arg8 harg8 arg9 harg9 hc0 hc1 x0 x1 x2 x3 = k0_pay3 (selfRows i hc0 x0) x1 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_unit_zero hz2]
  simp only [View.readAt_eq_ld, harg2.read_unread, harg3.read_unread, View.ld_unit_zero (S := S256x256) hz2]
  try rfl

/-! ## 0 < k < 7: one step -/

theorem step_acc (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i) (x0 : Vec F S8192x256 .f32) (x1 : Vec F S256x256 .f32) (x2 : Vec F S1024x1024 .f32) (x3 : Vec F S1x256 .f32) (xs0 : Vec F S1024x256 .f32) (xs1 : Vec F S1024x1 .f32) (xs2 : Vec F S1024x256 .f32) :
    sout0_B_0 c i arg2 harg2 arg3 harg3 arg4 harg4 arg5 harg5 arg6 harg6 arg7 harg7 arg8 harg8 arg9 harg9 hc0 hc1 x0 x1 x2 x3 xs0 xs1 xs2 = k0_pay5 x2 (colRows i x0) x1 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg2.read_unread, harg3.read_unread, harg4.read_unread, harg7.read_unread,
    View.ld_unit_zero (S := S1024x1024) hz2, View.ld_unit_zero (S := S256x256) hz2, View.ld_unit_zero (S := S1024x256) hz2]
  try rfl

theorem step_deg (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : ¬cond0_1 i) (x0 : Vec F S8192x256 .f32) (x1 : Vec F S256x256 .f32) (x2 : Vec F S1024x1024 .f32) (x3 : Vec F S1x256 .f32) (xs0 : Vec F S1024x256 .f32) (xs1 : Vec F S1024x1 .f32) (xs2 : Vec F S1024x256 .f32) :
    sout0_B_1 c i arg2 harg2 arg3 harg3 arg4 harg4 arg5 harg5 arg6 harg6 arg7 harg7 arg8 harg8 arg9 harg9 hc0 hc1 x0 x1 x2 x3 xs0 xs1 xs2 = k0_pay4 x2 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz2]
  simp only [View.readAt_eq_ld, harg4.read_unread, harg8.read_unread,
    View.ld_unit_zero (S := S1024x1024) hz2, View.ld_unit_zero (S := S1024x1) hz2]
  try rfl

/-! ## k = 7: the last step, then the epilogue -/

theorem last_acc (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S8192x256 .f32) (x1 : Vec F S256x256 .f32) (x2 : Vec F S1024x1024 .f32) (x3 : Vec F S1x256 .f32) (xs0 : Vec F S1024x256 .f32) (xs1 : Vec F S1024x1 .f32) (xs2 : Vec F S1024x256 .f32) :
    sout0_C_0 c i arg2 harg2 arg3 harg3 arg4 harg4 arg5 harg5 arg6 harg6 arg7 harg7 arg8 harg8 arg9 harg9 hc0 hc1 x0 x1 x2 x3 xs0 xs1 xs2 = k0_pay5 x2 (colRows i x0) x1 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg2.read_unread, harg3.read_unread, harg4.read_unread, harg7.read_unread,
    View.ld_unit_zero (S := S1024x1024) hz2, View.ld_unit_zero (S := S256x256) hz2, View.ld_unit_zero (S := S1024x256) hz2]
  try rfl

theorem last_deg (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S8192x256 .f32) (x1 : Vec F S256x256 .f32) (x2 : Vec F S1024x1024 .f32) (x3 : Vec F S1x256 .f32) (xs0 : Vec F S1024x256 .f32) (xs1 : Vec F S1024x1 .f32) (xs2 : Vec F S1024x256 .f32) :
    sout0_C_1 c i arg2 harg2 arg3 harg3 arg4 harg4 arg5 harg5 arg6 harg6 arg7 harg7 arg8 harg8 arg9 harg9 hc0 hc1 x0 x1 x2 x3 xs0 xs1 xs2 = k0_pay4 x2 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readAt_eq_ld, harg4.read_unread, harg8.read_unread,
    View.ld_unit_zero (S := S1024x1024) hz2, View.ld_unit_zero (S := S1024x1) hz2]
  try rfl

/-- The output block: the epilogue of the finished running sum, running product and own support rows. -/
theorem last_out (c : Dev nD) (i : grid0.Coords) (arg2 : Memref sig .tc .vmem S8192x256 .f32) (harg2 : arg2.IsWhole) (arg3 : Memref sig .tc .vmem S256x256 .f32) (harg3 : arg3.IsWhole) (arg4 : Memref sig .tc .vmem S1024x1024 .f32) (harg4 : arg4.IsWhole) (arg5 : Memref sig .tc .vmem S1x256 .f32) (harg5 : arg5.IsWhole) (arg6 : Memref sig .tc .vmem S1024x256 .f32) (harg6 : arg6.IsWhole) (arg7 : Memref sig .tc .vmem S1024x256 .f32) (harg7 : arg7.IsWhole) (arg8 : Memref sig .tc .vmem S1024x1 .f32) (harg8 : arg8.IsWhole) (arg9 : Memref sig .tc .vmem S1024x256 .f32) (harg9 : arg9.IsWhole) (hc0 : ¬cond0_0 i) (hc1 : cond0_1 i) (x0 : Vec F S8192x256 .f32) (x1 : Vec F S256x256 .f32) (x2 : Vec F S1024x1024 .f32) (x3 : Vec F S1x256 .f32) (xs0 : Vec F S1024x256 .f32) (xs1 : Vec F S1024x1 .f32) (xs2 : Vec F S1024x256 .f32) :
    out0_C_4 c i arg2 harg2 arg3 harg3 arg4 harg4 arg5 harg5 arg6 harg6 arg7 harg7 arg8 harg8 arg9 harg9 hc0 hc1 x0 x1 x2 x3 xs0 xs1 xs2
      = k0_pay6 (k0_pay4 x2 xs1) (k0_pay5 x2 (colRows i x0) x1 xs0) xs2 x3 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz2]
  simp only [View.readCov_unit_zero (S := S1024x256) arg7.view hz2, View.readCov_unit_zero (S := S1024x1) arg8.view hz2,
    View.readAt_eq_ld, harg2.read_unread, harg3.read_unread, harg4.read_unread, harg5.read_unread, harg7.read_unread, harg8.read_unread, harg9.read_unread,
    View.ld_unit_zero (S := S1024x1024) hz2, View.ld_unit_zero (S := S256x256) hz2, View.ld_unit_zero (S := S1024x256) hz2,
    View.ld_unit_zero (S := S1024x1) hz2, View.ld_unit_zero (S := S1x256) hz2]
  try rfl

end Cert.KernelIdeal.Pieces

end
-- ==== Proof.KernelSteps.lean ====
/-
  One grid point of the fused graph-convolution body, as equations between what the point leaves in its three
  carried buffers (and, at k = 7, in the output block) and the body's payload terms applied to the point's blocks
  and to what the point before left. These hold at any reading of the floats: they only say which store wrote what.
-/
import proofs.«132413_j75728863363703_2_alg».proof.Proof.Gen.KernelIdeal.Frame
import proofs.«132413_j75728863363703_2_alg».proof.Proof.KernelPieces

set_option maxRecDepth 16384

noncomputable section

namespace Cert.KernelIdeal.Steps

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- k = 0: the cleared buffers after the first step, and the own support rows. -/
theorem first (c : Dev nD) (t : Fin cfg0.N) (h0 : t.val % 8 = 0) (h1 : ¬t.val % 8 = 7) :
    (outsAt0 m c t.val t.isLt).2.1
        = k0_pay5 (iblk m c 2 t) (Pieces.colRows (grid0.coords t) (iblk m c 0 t)) (iblk m c 1 t) (k0_pay1 (F := F))
    ∧ (outsAt0 m c t.val t.isLt).2.2.1 = k0_pay4 (iblk m c 2 t) (k0_pay2 (F := F))
    ∧ (outsAt0 m c t.val t.isLt).2.2.2
        = k0_pay3 (Pieces.selfRows (grid0.coords t) ((hcond0_0 t).mpr h0) (iblk m c 0 t)) (iblk m c 1 t) := by
  rw [outsAt0_A m c t h0 h1]
  dsimp only
  exact ⟨Pieces.first_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.first_deg c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    Pieces.first_self c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)⟩

/-- 0 < k < 7: one step over what the point before left. -/
theorem middle (c : Dev nD) (t : Fin cfg0.N) (h0 : ¬t.val % 8 = 0) (h1 : ¬t.val % 8 = 7) :
    (outsAt0 m c t.val t.isLt).2.1
        = k0_pay5 (iblk m c 2 t) (Pieces.colRows (grid0.coords t) (iblk m c 0 t)) (iblk m c 1 t) (outsAt0 m c (t.val - 1) (Nat.lt_of_le_of_lt (Nat.sub_le _ _) t.isLt)).2.1
    ∧ (outsAt0 m c t.val t.isLt).2.2.1 = k0_pay4 (iblk m c 2 t) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  rw [outsAt0_B m c t h0 h1]
  dsimp only
  exact ⟨Pieces.step_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.step_deg c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    rfl⟩

/-- k = 7: one more step, and the output block is the epilogue of the finished buffers. -/
theorem last (c : Dev nD) (t : Fin cfg0.N) (h0 : ¬t.val % 8 = 0) (h1 : t.val % 8 = 7) :
    (outsAt0 m c t.val t.isLt).2.1
        = k0_pay5 (iblk m c 2 t) (Pieces.colRows (grid0.coords t) (iblk m c 0 t)) (iblk m c 1 t) (outsAt0 m c (t.val - 1) (Nat.lt_of_le_of_lt (Nat.sub_le _ _) t.isLt)).2.1
    ∧ (outsAt0 m c t.val t.isLt).2.2.1 = k0_pay4 (iblk m c 2 t) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2
    ∧ (outsAt0 m c t.val t.isLt).1
        = k0_pay6 (k0_pay4 (iblk m c 2 t) (outsAt0 m c (t.val - 1) (Nat.lt_of_le_of_lt (Nat.sub_le _ _) t.isLt)).2.2.1)
            (k0_pay5 (iblk m c 2 t) (Pieces.colRows (grid0.coords t) (iblk m c 0 t)) (iblk m c 1 t) (outsAt0 m c (t.val - 1) (Nat.lt_of_le_of_lt (Nat.sub_le _ _) t.isLt)).2.1)
            (outsAt0 m c (t.val - 1) (Nat.lt_of_le_of_lt (Nat.sub_le _ _) t.isLt)).2.2.2 (iblk m c 3 t) := by
  rw [outsAt0_C m c t h0 h1]
  dsimp only
  exact ⟨Pieces.last_acc c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    Pieces.last_deg c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    rfl,
    Pieces.last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- k > 0, either way: one step over what the point before left. -/
theorem next (c : Dev nD) (t : Fin cfg0.N) (h0 : ¬t.val % 8 = 0) :
    (outsAt0 m c t.val t.isLt).2.1
        = k0_pay5 (iblk m c 2 t) (Pieces.colRows (grid0.coords t) (iblk m c 0 t)) (iblk m c 1 t) (outsAt0 m c (t.val - 1) (Nat.lt_of_le_of_lt (Nat.sub_le _ _) t.isLt)).2.1
    ∧ (outsAt0 m c t.val t.isLt).2.2.1 = k0_pay4 (iblk m c 2 t) (outsAt0 m c (t.val - 1) (Nat.lt_of_le_of_lt (Nat.sub_le _ _) t.isLt)).2.2.1
    ∧ (outsAt0 m c t.val t.isLt).2.2.2 = (outsAt0 m c (t.val - 1) (Nat.lt_of_le_of_lt (Nat.sub_le _ _) t.isLt)).2.2.2 := by
  by_cases h1 : t.val % 8 = 7
  · exact ⟨(last m c t h0 h1).1, (last m c t h0 h1).2.1, (last m c t h0 h1).2.2.1⟩
  · exact middle m c t h0 h1

/-- k = 7: the output block as the epilogue of the three buffers as THIS point leaves them. -/
theorem out_at_last (c : Dev nD) (t : Fin cfg0.N) (h0 : ¬t.val % 8 = 0) (h1 : t.val % 8 = 7) :
    (outsAt0 m c t.val t.isLt).1 = k0_pay6 (outsAt0 m c t.val t.isLt).2.2.1 (outsAt0 m c t.val t.isLt).2.1
      (outsAt0 m c t.val t.isLt).2.2.2 (iblk m c 3 t) := by
  obtain ⟨ea, ed, es, eo⟩ := last m c t h0 h1
  rw [eo, ea, ed, es]

end Cert.KernelIdeal.Steps

end
-- ==== Proof.KernelPayloads.lean ====
/-
  The body's arithmetic read at one entry, on the extended reals: each payload of the fused graph-convolution
  body as a plain formula in the entries of the blocks it takes.

  * clearing leaves 0 everywhere;
  * the own support rows: (rows · W)[p, q] = Σ_j rows[p, j] · W[j, q];
  * one step of the running product: acc[p, q] + Σ_c a[p, c] · (Σ_j rows[c, j] · W[j, q]),
    where a is the adjacency block and rows the feature rows that block's columns meet;
  * one step of the running row sum: deg[p] + Σ_c a[p, c];
  * the epilogue: tanh((acc[p, q] + self[p, q]) / (deg[p] + 1) + b[q]).
  A change of float format is the identity here, a matrix product into a zero accumulator is the plain sum of
  products, and a lane reduction is the plain sum over the lane axis.
-/
import proofs.«132413_j75728863363703_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-- The f32 pattern of 1.0 denotes the real 1. -/
theorem one_f32 : Ideal.ofBits .f32 0x3F800000#32 = 1 := by
  simp [Ideal.ofBits, Ideal.ieee, -EReal.coe_mul]; norm_num

theorem rowsWeights_apply_l0 (i : S1024x256.Idx) (c : dot_S1024x256_S256x256_S1024x256_1_0_0_1_n_n.contr.Idx) : (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
theorem rowsWeights_apply_l1 (i : S1024x256.Idx) (c : dot_S1024x256_S256x256_S1024x256_1_0_0_1_n_n.contr.Idx) : (dot_S1024x256_S256x256_S1024x256_1_0_0_1_n_n.lhsIdx i c 1).val = (c ⟨0, by decide⟩).val :=
  dot_S1024x256_S256x256_S1024x256_1_0_0_1_n_n.lhsIdx_val_of_single rfl i c
theorem rowsWeights_apply_r0 (i : S1024x256.Idx) (c : dot_S1024x256_S256x256_S1024x256_1_0_0_1_n_n.contr.Idx) : (dot_S1024x256_S256x256_S1024x256_1_0_0_1_n_n.rhsIdx i c 0).val = (c ⟨0, by decide⟩).val :=
  dot_S1024x256_S256x256_S1024x256_1_0_0_1_n_n.rhsIdx_val_of_single rfl i c
theorem rowsWeights_apply_r1 (i : S1024x256.Idx) (c : dot_S1024x256_S256x256_S1024x256_1_0_0_1_n_n.contr.Idx) : (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- A [1024, 256] by [256, 256] product into zeros, at (p, q): the sum over the 256 shared coordinates. -/
theorem rowsWeights_apply (l : FVec Ideal S1024x256 .bf16) (r : FVec Ideal S256x256 .bf16) (p : Fin 1024) (q : Fin 256) :
    matmul dot_S1024x256_S256x256_S1024x256_1_0_0_1_n_n none l r (constant (F := Ideal) S1024x256 .f32 0x00000000#32) (ix2 p q)
      = ∑ k : Fin 256, l (ix2 p k) * r (ix2 k q) := by
  refine (Ideal.matmul_constant_zero_apply dot_S1024x256_S256x256_S1024x256_1_0_0_1_n_n none l r (ix2 p q)).trans ?_
  rw [← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k :=
    funext fun a => Fin.ext (by
      match a with
      | ⟨0, _⟩ => exact rowsWeights_apply_l0 _ _
      | ⟨1, _⟩ => exact (rowsWeights_apply_l1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q :=
    funext fun a => Fin.ext (by
      match a with
      | ⟨0, _⟩ => exact (rowsWeights_apply_r0 _ _).trans hk
      | ⟨1, _⟩ => exact rowsWeights_apply_r1 _ _)
  rw [el, er]

theorem adjSupport_apply_l0 (i : S1024x256.Idx) (c : dot_S1024x1024_S1024x256_S1024x256_1_0_0_1_n_n.contr.Idx) : (dot_S1024x1024_S1024x256_S1024x256_1_0_0_1_n_n.lhsIdx i c 0).val = (i 0).val := by
  unfold DotDims.lhsIdx
  rw [dif_neg (show ¬(0 : Fin S1024x1024.rank) ∈ dot_S1024x1024_S1024x256_S1024x256_1_0_0_1_n_n.lhsBatch by decide),
    dif_pos (show (0 : Fin S1024x1024.rank) ∈ dot_S1024x1024_S1024x256_S1024x256_1_0_0_1_n_n.lhsNonContracting by decide)]
  rfl
theorem adjSupport_apply_l1 (i : S1024x256.Idx) (c : dot_S1024x1024_S1024x256_S1024x256_1_0_0_1_n_n.contr.Idx) : (dot_S1024x1024_S1024x256_S1024x256_1_0_0_1_n_n.lhsIdx i c 1).val = (c ⟨0, by decide⟩).val :=
  dot_S1024x1024_S1024x256_S1024x256_1_0_0_1_n_n.lhsIdx_val_of_single rfl i c
theorem adjSupport_apply_r0 (i : S1024x256.Idx) (c : dot_S1024x1024_S1024x256_S1024x256_1_0_0_1_n_n.contr.Idx) : (dot_S1024x1024_S1024x256_S1024x256_1_0_0_1_n_n.rhsIdx i c 0).val = (c ⟨0, by decide⟩).val :=
  dot_S1024x1024_S1024x256_S1024x256_1_0_0_1_n_n.rhsIdx_val_of_single rfl i c
theorem adjSupport_apply_r1 (i : S1024x256.Idx) (c : dot_S1024x1024_S1024x256_S1024x256_1_0_0_1_n_n.contr.Idx) : (dot_S1024x1024_S1024x256_S1024x256_1_0_0_1_n_n.rhsIdx i c 1).val = (i 1).val := by
  unfold DotDims.rhsIdx
  rw [dif_neg (show ¬(1 : Fin S1024x256.rank) ∈ dot_S1024x1024_S1024x256_S1024x256_1_0_0_1_n_n.rhsBatch by decide),
    dif_pos (show (1 : Fin S1024x256.rank) ∈ dot_S1024x1024_S1024x256_S1024x256_1_0_0_1_n_n.rhsNonContracting by decide)]
  rfl

/-- A [1024, 1024] by [1024, 256] product into zeros, at (p, q): the sum over the 1024 shared coordinates. -/
theorem adjSupport_apply (l : FVec Ideal S1024x1024 .bf16) (r : FVec Ideal S1024x256 .bf16) (p : Fin 1024) (q : Fin 256) :
    matmul dot_S1024x1024_S1024x256_S1024x256_1_0_0_1_n_n none l r (constant (F := Ideal) S1024x256 .f32 0x00000000#32) (ix2 p q)
      = ∑ k : Fin 1024, l (ix2 p k) * r (ix2 k q) := by
  refine (Ideal.matmul_constant_zero_apply dot_S1024x1024_S1024x256_S1024x256_1_0_0_1_n_n none l r (ix2 p q)).trans ?_
  rw [← Equiv.sum_comp (ValueIdx.contrEquiv1 dot_S1024x1024_S1024x256_S1024x256_1_0_0_1_n_n 1024 rfl rfl).symm]
  refine Finset.sum_congr rfl fun k _ => ?_
  have hk := ValueIdx.contrEquiv1_symm_val dot_S1024x1024_S1024x256_S1024x256_1_0_0_1_n_n 1024 rfl rfl k
  have el : dot_S1024x1024_S1024x256_S1024x256_1_0_0_1_n_n.lhsIdx (ix2 p q) ((ValueIdx.contrEquiv1 dot_S1024x1024_S1024x256_S1024x256_1_0_0_1_n_n 1024 rfl rfl).symm k) = ix2 p k :=
    funext fun a => Fin.ext (by
      match a with
      | ⟨0, _⟩ => exact adjSupport_apply_l0 _ _
      | ⟨1, _⟩ => exact (adjSupport_apply_l1 _ _).trans hk)
  have er : dot_S1024x1024_S1024x256_S1024x256_1_0_0_1_n_n.rhsIdx (ix2 p q) ((ValueIdx.contrEquiv1 dot_S1024x1024_S1024x256_S1024x256_1_0_0_1_n_n 1024 rfl rfl).symm k) = ix2 k q :=
    funext fun a => Fin.ext (by
      match a with
      | ⟨0, _⟩ => exact (adjSupport_apply_r0 _ _).trans hk
      | ⟨1, _⟩ => exact adjSupport_apply_r1 _ _)
  rw [el, er]

/-- The lane sum of a [1024, 1024] block at row p: the sum of the row's 1024 entries. -/
theorem laneSum_apply (src : FVec Ideal S1024x1024 .f32) (hφ : FKind.Formats .f32)
    (hacc : (0x00000000#32 : BitVec 32) = 0x00000000#32) (p : Fin 1024) :
    multiReduction .add [1] S1024 src 0x00000000#32 reduces_S1024x1024_S1024 hφ hacc (ix1 p)
      = ∑ c : Fin 1024, src (ix2 p c) := by
  refine (Ideal.multiReduction_add_single src 0x00000000#32 reduces_S1024x1024_S1024 hφ hacc (ix1 p)).trans ?_
  exact Finset.sum_congr rfl fun c _ => congrArg src (funext fun a => Fin.ext (by
    match a with
    | ⟨0, _⟩ => rfl
    | ⟨1, _⟩ => rfl))

/-- A [1024] vector cast to a [1024, 1] column reads, at (p, u), the vector at p. -/
theorem column_apply {α : Type} (v : S1024.Idx → α) (p : Fin 1024) (u : Fin 1) :
    shapeCast S1024x1 v shapeCasts_S1024_S1024x1 (ix2 p u) = v (ix1 p) :=
  shapeCast_apply v shapeCasts_S1024_S1024x1 _ _ (by
    have hu : u.val = 0 := by omega
    rw [Shape.rowMajor_val_two, Shape.rowMajor_val_one]
    show p.val = p.val * 1 + u.val
    rw [hu, Nat.mul_one, Nat.add_zero])

/-- A [1024, 1] column broadcast to [1024, 256] reads, at (p, q), the column at p. -/
theorem columnBroadcast_apply {α : Type} (v : S1024x1.Idx → α) (p : Fin 1024) (q : Fin 256) :
    broadcastTo S1024x256 v broadcasts_S1024x1_S1024x256 (ix2 p q) = v (ix2 p (0 : Fin 1)) := by
  refine broadcastTo_apply v broadcasts_S1024x1_S1024x256 (ix2 p q) (ix2 p (0 : Fin 1)) fun ax => ?_
  match ax with
  | ⟨0, _⟩ =>
    show p.val = if (1024 : Nat) = 1 then 0 else p.val
    rw [if_neg (by decide)]
  | ⟨1, _⟩ =>
    show (0 : Nat) = if (1 : Nat) = 1 then 0 else q.val
    rw [if_pos rfl]

/-- Clearing the running product leaves 0. -/
theorem clearedAcc_apply (y : S1024x256.Idx) : k0_pay1 (F := Ideal) y = 0 := by
  unfold k0_pay1
  rw [shapeCast_self]
  exact Ideal.ofBits_zero_f32

/-- Clearing the running row sum leaves 0. -/
theorem clearedDeg_apply (y : S1024x1.Idx) : k0_pay2 (F := Ideal) y = 0 := by
  unfold k0_pay2
  rw [shapeCast_self]
  exact Ideal.ofBits_zero_f32

/-- The row block's own support rows at (p, q). -/
theorem ownSupport_apply (rows : Vec Ideal S1024x256 .f32) (w : Vec Ideal S256x256 .f32) (p : Fin 1024) (q : Fin 256) :
    k0_pay3 (F := Ideal) rows w (ix2 p q) = ∑ j : Fin 256, rows (ix2 p j) * w (ix2 j q) := by
  unfold k0_pay3
  rw [shapeCast_self]
  exact rowsWeights_apply _ _ p q

/-- One step of the running product at (p, q). -/
theorem stepAcc_apply (a : Vec Ideal S1024x1024 .f32) (rows : Vec Ideal S1024x256 .f32) (w : Vec Ideal S256x256 .f32)
    (acc : Vec Ideal S1024x256 .f32) (p : Fin 1024) (q : Fin 256) :
    k0_pay5 (F := Ideal) a rows w acc (ix2 p q)
      = acc (ix2 p q) + ∑ c : Fin 1024, a (ix2 p c) * ∑ j : Fin 256, rows (ix2 c j) * w (ix2 j q) := by
  unfold k0_pay5
  rw [shapeCast_self]
  refine congrArg (acc (ix2 p q) + ·) ?_
  refine (adjSupport_apply _ _ p q).trans ?_
  refine Finset.sum_congr rfl fun c _ => ?_
  exact congrArg (a (ix2 p c) * ·) (rowsWeights_apply _ _ c q)

/-- One step of the running row sum at (p, u). -/
theorem stepDeg_apply (a : Vec Ideal S1024x1024 .f32) (deg : Vec Ideal S1024x1 .f32) (p : Fin 1024) (u : Fin 1) :
    k0_pay4 (F := Ideal) a deg (ix2 p u) = deg (ix2 p u) + ∑ c : Fin 1024, a (ix2 p c) := by
  unfold k0_pay4
  rw [shapeCast_self]
  refine congrArg (deg (ix2 p u) + ·) ?_
  refine (column_apply _ p u).trans ?_
  exact laneSum_apply a _ _ p

/-- The epilogue at (p, q). -/
theorem epilogue_apply (deg : Vec Ideal S1024x1 .f32) (acc self : Vec Ideal S1024x256 .f32) (b : Vec Ideal S1x256 .f32)
    (p : Fin 1024) (q : Fin 256) :
    k0_pay6 (F := Ideal) deg acc self b (ix2 p q)
      = Ideal.tanh (Ideal.div (acc (ix2 p q) + self (ix2 p q)) (deg (ix2 p (0 : Fin 1)) + 1) + b (ix2 (0 : Fin 1) q)) := by
  unfold k0_pay6
  rw [shapeCast_self]
  show Ideal.tanh (Ideal.div (acc (ix2 p q) + self (ix2 p q))
      (broadcastTo S1024x256 (addf deg (broadcast S1024x1 (Scalar.ofBits (F := Ideal) .f32 0x3F800000#32))) broadcasts_S1024x1_S1024x256 (ix2 p q))
    + broadcastTo S1024x256 b broadcasts_S1x256_S1024x256 (ix2 p q)) = _
  rw [columnBroadcast_apply, broadcastTo_1b_ab_apply]
  show Ideal.tanh (Ideal.div (acc (ix2 p q) + self (ix2 p q)) (deg (ix2 p (0 : Fin 1)) + Ideal.ofBits .f32 0x3F800000#32)
    + b (ix2 (0 : Fin 1) q)) = _
  rw [one_f32]

end Cert.KernelIdeal.Payloads

end
-- ==== Proof.KernelBlocks.lean ====
/-
  The blocks the fused graph-convolution body is handed at grid point t = 8·i + k (row block i, column block k), as
  pieces of the four argument arrays:

  * the features X and the weights W come whole at every point;
  * the adjacency block is A[1024·i … 1024·i + 1023, 1024·k … 1024·k + 1023];
  * the bias comes whole, as the one row of a [1, 256] array: entry (0, q) is b[q];
  * the output block of row block i is rows 1024·i … 1024·i + 1023 of the result.
-/
import proofs.«132413_j75728863363703_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The features' window always sits at block (0, 0). -/
theorem featIndex : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-- The weights' window always sits at block (0, 0). -/
theorem wgtIndex : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The adjacency's window at point t = 8·i + k sits at block (i, k). -/
theorem adjIndex : ∀ t : Fin cfg0.N, win0_2.index t (0 : Fin 2) = t.val / 8 ∧ win0_2.index t (1 : Fin 2) = t.val % 8 :=
  (by decide +kernel : ∀ t : Fin grid0.N, win0_2.index t (0 : Fin 2) = t.val / 8 ∧ win0_2.index t (1 : Fin 2) = t.val % 8)

/-- The bias row's window always sits at block (0, 0). -/
theorem biasIndex : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- The output's window at point t = 8·i + k sits at block (i, 0). -/
theorem outIndex : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- The features come whole. -/
theorem features_block (c : Dev nD) (t : Fin cfg0.N) :
    (iblk m c 0 t : Vec F S8192x256 .f32) = m ((c : Thread nD τ).loc main_arg0) := by
  have hi := featIndex t
  funext j
  unfold iblk
  rw [View.read_apply]
  show V m c main_arg0 (((cfg0.win 0).blk t).view.emb j) = m (c.tc.loc main_arg0) j
  rw [V_main_arg0]
  refine congrArg (m (c.tc.loc main_arg0)) (funext fun a => Fin.ext ?_)
  match a with
  | ⟨0, _⟩ => show win0_0.index t (0 : Fin 2) * 8192 + 1 * (j 0).val = (j 0).val; rw [hi.1]; omega
  | ⟨1, _⟩ => show win0_0.index t (1 : Fin 2) * 256 + 1 * (j 1).val = (j 1).val; rw [hi.2]; omega

/-- The weights come whole. -/
theorem weights_block (c : Dev nD) (t : Fin cfg0.N) :
    (iblk m c 1 t : Vec F S256x256 .f32) = m ((c : Thread nD τ).loc main_arg2) := by
  have hi := wgtIndex t
  funext j
  unfold iblk
  rw [View.read_apply]
  show V m c main_arg2 (((cfg0.win 1).blk t).view.emb j) = m (c.tc.loc main_arg2) j
  rw [V_main_arg2]
  refine congrArg (m (c.tc.loc main_arg2)) (funext fun a => Fin.ext ?_)
  match a with
  | ⟨0, _⟩ => show win0_1.index t (0 : Fin 2) * 256 + 1 * (j 0).val = (j 0).val; rw [hi.1]; omega
  | ⟨1, _⟩ => show win0_1.index t (1 : Fin 2) * 256 + 1 * (j 1).val = (j 1).val; rw [hi.2]; omega

/-- Entry (y0, y1) of the adjacency block at point t is A[1024·(t / 8) + y0, 1024·(t % 8) + y1]. -/
theorem adjacency_block_apply (c : Dev nD) (t : Fin cfg0.N) (y0 y1 : Fin 1024) (r c' : Fin 8192)
    (hr : r.val = 1024 * (t.val / 8) + y0.val) (hc : c'.val = 1024 * (t.val % 8) + y1.val) :
    (iblk m c 2 t : Vec F S1024x1024 .f32) (ix2 y0 y1) = m ((c : Thread nD τ).loc main_arg1) (ix2 r c') := by
  have hi := adjIndex t
  unfold iblk
  rw [View.read_apply]
  show V m c main_arg1 (((cfg0.win 2).blk t).view.emb (ix2 y0 y1)) = m (c.tc.loc main_arg1) (ix2 r c')
  rw [V_main_arg1]
  refine congrArg (m (c.tc.loc main_arg1)) (funext fun a => Fin.ext ?_)
  match a with
  | ⟨0, _⟩ => show win0_2.index t (0 : Fin 2) * 1024 + 1 * y0.val = r.val; rw [hi.1, hr]; omega
  | ⟨1, _⟩ => show win0_2.index t (1 : Fin 2) * 1024 + 1 * y1.val = c'.val; rw [hi.2, hc]; omega

/-- The bias row as the region finds it: the bias recast as one row. -/
theorem bias_row (c : Dev nD) :
    (V m c main_v0 : S1x256.Idx → F .f32) = shapeCast S1x256 (m ((c : Thread nD τ).loc main_arg3)) shapeCasts_S256_S1x256 := by
  dsimp only [V, hostOps0]
  after_results
  rfl

/-- Entry (u, q) of the bias block is b[q]. -/
theorem bias_block_apply (c : Dev nD) (t : Fin cfg0.N) (u : Fin 1) (q : Fin 256) :
    (iblk m c 3 t : Vec F S1x256 .f32) (ix2 u q) = m ((c : Thread nD τ).loc main_arg3) (ix1 q) := by
  have hi := biasIndex t
  unfold iblk
  rw [View.read_apply]
  show V m c main_v0 (((cfg0.win 3).blk t).view.emb (ix2 u q)) = m (c.tc.loc main_arg3) (ix1 q)
  have he : ((cfg0.win 3).blk t).view.emb (ix2 u q) = ix2 (0 : Fin 1) q := funext fun a => Fin.ext (by
    have hu : u.val = 0 := by omega
    match a with
    | ⟨0, _⟩ => show win0_3.index t (0 : Fin 2) * 1 + 1 * u.val = 0; rw [hi.1, hu]
    | ⟨1, _⟩ => show win0_3.index t (1 : Fin 2) * 256 + 1 * q.val = q.val; rw [hi.2]; omega)
  rw [he, bias_row]
  exact shapeCast_a_1a_apply _ _ (0 : Fin 1) q

end Cert.KernelIdeal.Blocks

end
-- ==== Proof.KernelFold.lean ====
/-
  What the fused graph-convolution kernel's three carried buffers hold after each grid point, and from that the
  result array.

  Grid point t = 8·i + k handles row block i (rows 1024·i …) against column block k (columns 1024·k …). With
  S = X·W the support, after point t
    * the running product holds, at (p, q),  Σ_{k' ≤ k} Σ_{c < 1024} A[1024·i + p, 1024·k' + c] · S[1024·k' + c, q];
    * the running row sum holds, at p,       Σ_{k' ≤ k} Σ_{c < 1024} A[1024·i + p, 1024·k' + c];
    * the own support rows hold              S[1024·i + p, q]
  (by induction over the points: k = 0 clears and takes the first step, every later k adds its column block). At
  k = 7 the two sums run over all eight column blocks, that is over all 8192 columns, and the epilogue writes
  tanh((product + own rows) / (row sum + 1) + b) — the fused arrangement of the specification — to rows
  1024·i … of the result. The eight written blocks tile the result.
-/
import proofs.«132413_j75728863363703_2_alg».proof.Proof.Gen.KernelIdeal.Value
import proofs.«132413_j75728863363703_2_alg».proof.Proof.KernelPieces
import proofs.«132413_j75728863363703_2_alg».proof.Proof.KernelSteps
import proofs.«132413_j75728863363703_2_alg».proof.Proof.KernelPayloads
import proofs.«132413_j75728863363703_2_alg».proof.Proof.KernelBlocks
import proofs.«132413_j75728863363703_2_alg».proof.Proof.Spec
import proofs.«132413_j75728863363703_2_alg».proof.Proof.Algebra

set_option maxRecDepth 16384

noncomputable section

namespace Cert.KernelIdeal.Fold

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn (support)

variable (m : (ℓ : Loc nD τ sig) → Buf (Elt Ideal) ℓ)

/-- The features, adjacency, weights and bias of core c as launched. -/
abbrev feat (c : Dev nD) : Cert.Gcn.SFeat.Idx → EReal := m ((c : Thread nD τ).loc main_arg0)
abbrev adj (c : Dev nD) : Cert.Gcn.SAdj.Idx → EReal := m ((c : Thread nD τ).loc main_arg1)
abbrev wgt (c : Dev nD) : Cert.Gcn.SWgt.Idx → EReal := m ((c : Thread nD τ).loc main_arg2)
abbrev bias (c : Dev nD) : Cert.Gcn.SBias.Idx → EReal := m ((c : Thread nD τ).loc main_arg3)

/-- Row (or column) p of block i of an axis of 8192 cut into blocks of 1024. -/
def rowOf (i p : ℕ) : Fin 8192 := ⟨(1024 * i + p) % 8192, Nat.mod_lt _ (by decide)⟩

theorem rowOf_val (i p : ℕ) (hi : i < 8) (hp : p < 1024) : (rowOf i p).val = 1024 * i + p := by
  show (1024 * i + p) % 8192 = 1024 * i + p
  omega

/-- The running product after column blocks 0..k of row block i. -/
def accUpTo (X : Cert.Gcn.SFeat.Idx → EReal) (A : Cert.Gcn.SAdj.Idx → EReal) (W : Cert.Gcn.SWgt.Idx → EReal)
    (i k : ℕ) (p : Fin 1024) (q : Fin 256) : EReal :=
  ∑ k' ∈ Finset.range (k + 1), ∑ c' : Fin 1024, A (ix2 (rowOf i p.val) (rowOf k' c'.val)) * support X W (rowOf k' c'.val) q

/-- The running row sum after column blocks 0..k of row block i. -/
def degUpTo (A : Cert.Gcn.SAdj.Idx → EReal) (i k : ℕ) (p : Fin 1024) : EReal :=
  ∑ k' ∈ Finset.range (k + 1), ∑ c' : Fin 1024, A (ix2 (rowOf i p.val) (rowOf k' c'.val))

/-- The dynamic row offsets of the two feature loads, decided over the grid. -/
theorem colOffset : ∀ t : Fin cfg0.N, k0_off2 (grid0.coords t) 0 = 1024 * (t.val % 8) ∧ k0_off2 (grid0.coords t) 1 = 0 :=
  (by decide +kernel : ∀ t : Fin grid0.N, k0_off2 (grid0.coords t) 0 = 1024 * (t.val % 8) ∧ k0_off2 (grid0.coords t) 1 = 0)

theorem rowOffset : ∀ t : Fin cfg0.N, k0_off1 (grid0.coords t) 0 = 1024 * (t.val / 8) ∧ k0_off1 (grid0.coords t) 1 = 0 :=
  (by decide +kernel : ∀ t : Fin grid0.N, k0_off1 (grid0.coords t) 0 = 1024 * (t.val / 8) ∧ k0_off1 (grid0.coords t) 1 = 0)

/-- The feature rows column block k meets, at (c', j): row 1024·k + c' of the features. -/
theorem colRows_apply (t : Fin cfg0.N) (x0 : Vec Ideal S8192x256 .f32) (c' : Fin 1024) (j : Fin 256) (r : Fin 8192)
    (hr : r.val = 1024 * (t.val % 8) + c'.val) :
    Pieces.colRows (grid0.coords t) x0 (ix2 c' j) = x0 (ix2 r j) := by
  have ho := colOffset t
  show x0 ((Rect.unit (s := S8192x256) (k0_off2 (grid0.coords t)) S1024x256.size (k0_off2_inb (grid0.coords t))).idx (ix2 c' j)) = x0 (ix2 r j)
  refine congrArg x0 (funext fun a => Fin.ext ?_)
  match a with
  | ⟨0, _⟩ => show k0_off2 (grid0.coords t) 0 + 1 * c'.val = r.val; rw [ho.1, hr]; omega
  | ⟨1, _⟩ => show k0_off2 (grid0.coords t) 1 + 1 * j.val = j.val; rw [ho.2]; omega

/-- The row block's own feature rows, at (p, j): row 1024·i + p of the features. -/
theorem selfRows_apply (t : Fin cfg0.N) (hc0 : cond0_0 (grid0.coords t)) (x0 : Vec Ideal S8192x256 .f32) (p : Fin 1024)
    (j : Fin 256) (r : Fin 8192) (hr : r.val = 1024 * (t.val / 8) + p.val) :
    Pieces.selfRows (grid0.coords t) hc0 x0 (ix2 p j) = x0 (ix2 r j) := by
  have ho := rowOffset t
  show x0 ((Rect.unit (s := S8192x256) (k0_off1 (grid0.coords t)) S1024x256.size (k0_off1_inb (grid0.coords t) hc0)).idx (ix2 p j)) = x0 (ix2 r j)
  refine congrArg x0 (funext fun a => Fin.ext ?_)
  match a with
  | ⟨0, _⟩ => show k0_off1 (grid0.coords t) 0 + 1 * p.val = r.val; rw [ho.1, hr]; omega
  | ⟨1, _⟩ => show k0_off1 (grid0.coords t) 1 + 1 * j.val = j.val; rw [ho.2]; omega

/-- One step of the running product at point t, in the argument arrays. -/
theorem stepAcc_at (c : Dev nD) (t : Fin cfg0.N) (acc : Vec Ideal S1024x256 .f32) (p : Fin 1024) (q : Fin 256) :
    k0_pay5 (F := Ideal) (iblk m c 2 t) (Pieces.colRows (grid0.coords t) (iblk m c 0 t)) (iblk m c 1 t) acc (ix2 p q)
      = acc (ix2 p q) + ∑ c' : Fin 1024, adj m c (ix2 (rowOf (t.val / 8) p.val) (rowOf (t.val % 8) c'.val))
          * support (feat m c) (wgt m c) (rowOf (t.val % 8) c'.val) q := by
  have hN : t.val < 64 := lt_of_lt_of_eq t.isLt N_0
  refine (Payloads.stepAcc_apply (iblk m c 2 t) (Pieces.colRows (grid0.coords t) (iblk m c 0 t)) (iblk m c 1 t) acc p q).trans ?_
  refine congrArg (acc (ix2 p q) + ·) (Finset.sum_congr rfl fun c' _ => ?_)
  have hr : (rowOf (t.val / 8) p.val).val = 1024 * (t.val / 8) + p.val := rowOf_val _ _ (by omega) p.isLt
  have hc : (rowOf (t.val % 8) c'.val).val = 1024 * (t.val % 8) + c'.val := rowOf_val _ _ (by omega) c'.isLt
  refine congrArg₂ (· * ·) (Blocks.adjacency_block_apply m c t p c' _ _ hr hc) ?_
  unfold support
  refine Finset.sum_congr rfl fun j _ => ?_
  refine congrArg₂ (· * ·) ((colRows_apply t (iblk m c 0 t) c' j _ hc).trans ?_) ?_
  · exact congrFun (Blocks.features_block m c t) _
  · exact congrFun (Blocks.weights_block m c t) _

/-- One step of the running row sum at point t, in the argument arrays. -/
theorem stepDeg_at (c : Dev nD) (t : Fin cfg0.N) (deg : Vec Ideal S1024x1 .f32) (p : Fin 1024) (u : Fin 1) :
    k0_pay4 (F := Ideal) (iblk m c 2 t) deg (ix2 p u)
      = deg (ix2 p u) + ∑ c' : Fin 1024, adj m c (ix2 (rowOf (t.val / 8) p.val) (rowOf (t.val % 8) c'.val)) := by
  have hN : t.val < 64 := lt_of_lt_of_eq t.isLt N_0
  refine (Payloads.stepDeg_apply (iblk m c 2 t) deg p u).trans ?_
  refine congrArg (deg (ix2 p u) + ·) (Finset.sum_congr rfl fun c' _ => ?_)
  exact Blocks.adjacency_block_apply m c t p c' _ _ (rowOf_val _ _ (by omega) p.isLt) (rowOf_val _ _ (by omega) c'.isLt)

/-- What the three carried buffers hold after point n: the statement of the induction. -/
def Carried (c : Dev nD) (n : ℕ) (hn : n < cfg0.N) : Prop :=
  (∀ (p : Fin 1024) (q : Fin 256),
      (outsAt0 m c n hn).2.1 (ix2 p q) = accUpTo (feat m c) (adj m c) (wgt m c) (n / 8) (n % 8) p q)
  ∧ (∀ (p : Fin 1024) (u : Fin 1), (outsAt0 m c n hn).2.2.1 (ix2 p u) = degUpTo (adj m c) (n / 8) (n % 8) p)
  ∧ (∀ (p : Fin 1024) (q : Fin 256),
      (outsAt0 m c n hn).2.2.2 (ix2 p q) = support (feat m c) (wgt m c) (rowOf (n / 8) p.val) q)

/-- At k = 0 the buffers are cleared and take the first step; the own support rows are computed. -/
theorem carried_first (c : Dev nD) (t : Fin cfg0.N) (h0 : t.val % 8 = 0) : Carried m c t.val t.isLt := by
  have hN : t.val < 64 := lt_of_lt_of_eq t.isLt N_0
  have h1 : ¬t.val % 8 = 7 := by omega
  obtain ⟨ea, ed, es⟩ := Steps.first m c t h0 h1
  refine ⟨?_, ?_, ?_⟩
  · intro p q
    rw [congrFun ea (ix2 p q), stepAcc_at m c t _ p q, Payloads.clearedAcc_apply, zero_add, h0]
    unfold accUpTo
    rw [Finset.sum_range_succ, Finset.sum_range_zero, zero_add]
  · intro p u
    rw [congrFun ed (ix2 p u), stepDeg_at m c t _ p u, Payloads.clearedDeg_apply, zero_add, h0]
    unfold degUpTo
    rw [Finset.sum_range_succ, Finset.sum_range_zero, zero_add]
  · intro p q
    rw [congrFun es (ix2 p q)]
    refine (Payloads.ownSupport_apply (Pieces.selfRows (grid0.coords t) ((hcond0_0 t).mpr h0) (iblk m c 0 t)) (iblk m c 1 t) p q).trans ?_
    unfold support
    refine Finset.sum_congr rfl fun j _ => ?_
    refine congrArg₂ (· * ·) ((selfRows_apply t _ (iblk m c 0 t) p j _ (rowOf_val _ _ (by omega) p.isLt)).trans ?_) ?_
    · exact congrFun (Blocks.features_block m c t) _
    · exact congrFun (Blocks.weights_block m c t) _

/-- At k > 0 each buffer is the point before's with this column block added; the own support rows are kept. -/
theorem carried_next (c : Dev nD) (t : Fin cfg0.N) (h0 : ¬t.val % 8 = 0)
    (ih : ∀ h', Carried m c (t.val - 1) h') : Carried m c t.val t.isLt := by
  have hN : t.val < 64 := lt_of_lt_of_eq t.isLt N_0
  obtain ⟨k, hk⟩ : ∃ k, t.val % 8 = k + 1 := ⟨t.val % 8 - 1, by omega⟩
  have hdiv : (t.val - 1) / 8 = t.val / 8 := by omega
  have hprev : (t.val - 1) % 8 = k := by omega
  obtain ⟨ea, ed, es⟩ := Steps.next m c t h0
  refine ⟨?_, ?_, ?_⟩
  · intro p q
    rw [congrFun ea (ix2 p q), stepAcc_at m c t _ p q, (ih _).1 p q, hdiv, hprev, hk]
    unfold accUpTo
    rw [Finset.sum_range_succ _ (k + 1)]
  · intro p u
    rw [congrFun ed (ix2 p u), stepDeg_at m c t _ p u, (ih _).2.1 p u, hdiv, hprev, hk]
    unfold degUpTo
    rw [Finset.sum_range_succ _ (k + 1)]
  · intro p q
    rw [congrFun es (ix2 p q), (ih _).2.2 p q, hdiv]

/-- The invariant at every point. -/
theorem carried (c : Dev nD) : ∀ (n : ℕ) (hn : n < cfg0.N), Carried m c n hn := by
  intro n
  induction n with
  | zero => intro hn; exact carried_first m c ⟨0, hn⟩ rfl
  | succ n ih =>
    intro hn
    by_cases h0 : (n + 1) % 8 = 0
    · exact carried_first m c ⟨n + 1, hn⟩ h0
    · exact carried_next m c ⟨n + 1, hn⟩ h0 (fun h' => ih h')

end Cert.KernelIdeal.Fold

end
-- ==== Proof.KernelValue.lean ====
/-
  The fused graph-convolution kernel's result array: after the run, the result is the fused arrangement of the
  specification, tanh((Σ_c A[r,c]·S[c,h] + S[r,h]) / (Σ_c A[r,c] + 1) + b[h]), of the arrays as launched.

  Only the points with k = 7 write a block back. There the running product and the running row sum have met all
  eight column blocks, so their sums over (column block, column inside the block) are the sums over all 8192
  columns; the epilogue divides and adds the bias; and point 8·i + 7 writes rows 1024·i … 1024·i + 1023. Every row
  of the result lies in exactly one such block.
-/
import proofs.«132413_j75728863363703_2_alg».proof.Proof.KernelFold

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn (support)
open Cert.KernelIdeal.Fold (feat adj wgt bias rowOf accUpTo degUpTo)

variable (m : (ℓ : Loc nD τ sig) → Buf (Elt Ideal) ℓ) (ρ : Dev nD → PrngReg)

/-- The result array: the fused arrangement of the arrays as launched. -/
abbrev result (c : Dev nD) : Buf (Elt Ideal) ((c : Thread nD τ).loc main_v1) :=
  Cert.Gcn.fused (feat m c) (adj m c) (wgt m c) (bias m c)

/-- A column of block k' at position c' inside it, both ways of writing it. -/
theorem rowOf_eq_blockCol (k : Fin 8) (c' : Fin 1024) : rowOf k.val c'.val = Cert.Gcn.blockCol k c' :=
  Fin.ext (Fold.rowOf_val _ _ k.isLt c'.isLt)

/-- After all eight column blocks the running product is the sum over all columns. -/
theorem acc_full (X : Cert.Gcn.SFeat.Idx → EReal) (A : Cert.Gcn.SAdj.Idx → EReal) (W : Cert.Gcn.SWgt.Idx → EReal)
    (r : Fin 8192) (i : ℕ) (p : Fin 1024) (q : Fin 256) (hr : rowOf i p.val = r) :
    accUpTo X A W i 7 p q = ∑ c : Fin 8192, A (ix2 r c) * support X W c q := by
  unfold accUpTo
  rw [hr, ← Cert.Gcn.sum_by_blocks (fun c => A (ix2 r c) * support X W c q)]
  show ∑ k' ∈ Finset.range 8, _ = _
  rw [Finset.sum_range]
  refine Finset.sum_congr rfl fun k _ => Finset.sum_congr rfl fun c' _ => ?_
  rw [rowOf_eq_blockCol]

/-- After all eight column blocks the running row sum is the sum over all columns. -/
theorem deg_full (A : Cert.Gcn.SAdj.Idx → EReal) (r : Fin 8192) (i : ℕ) (p : Fin 1024) (hr : rowOf i p.val = r) :
    degUpTo A i 7 p = ∑ c : Fin 8192, A (ix2 r c) := by
  unfold degUpTo
  rw [hr, ← Cert.Gcn.sum_by_blocks (fun c => A (ix2 r c))]
  show ∑ k' ∈ Finset.range 8, _ = _
  rw [Finset.sum_range]
  refine Finset.sum_congr rfl fun k _ => Finset.sum_congr rfl fun c' _ => ?_
  rw [rowOf_eq_blockCol]

/-- Entry (p, q) of the output block at point t = 8·i + 7 is entry (1024·i + p, q) of the fused arrangement. -/
theorem out_apply (c : Dev nD) (t : Fin cfg0.N) (h1 : t.val % 8 = 7) (p : Fin 1024) (q : Fin 256) :
    (outsAt0 m c t.val t.isLt).1 (ix2 p q)
      = Cert.Gcn.fusedAt (feat m c) (adj m c) (wgt m c) (bias m c) (rowOf (t.val / 8) p.val) q := by
  have h0 : ¬t.val % 8 = 0 := by omega
  obtain ⟨ha, hd, hs⟩ := Fold.carried m c t.val t.isLt
  rw [congrFun (Steps.out_at_last m c t h0 h1) (ix2 p q)]
  refine (Payloads.epilogue_apply (outsAt0 m c t.val t.isLt).2.2.1 (outsAt0 m c t.val t.isLt).2.1
    (outsAt0 m c t.val t.isLt).2.2.2 (iblk m c 3 t) p q).trans ?_
  rw [ha p q, hd p 0, hs p q, Blocks.bias_block_apply m c t 0 q, h1,
    acc_full (feat m c) (adj m c) (wgt m c) (rowOf (t.val / 8) p.val) (t.val / 8) p q rfl,
    deg_full (adj m c) (rowOf (t.val / 8) p.val) (t.val / 8) p rfl]
  rfl

/-- An index of the result is in point t's block iff each coordinate is in the block's range on its axis. -/
theorem mem_blk (t : Fin cfg0.N) (i : S8192x256.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v1).slice (win0_4.rect t)).set ↔ _
  rw [View.set_slice_whole, Rect.mem_set_unit]
  exact Iff.rfl

/-- What a writing point writes back is its block of the result. -/
theorem flushed_eq (c : Dev nD) (t : Fin cfg0.N) (hf : (cfg0.win 4).flush t = true) :
    (dats m 0 c).flushed 4 t = ((cfg0.win 4).blk t).view.read (Elt Ideal) (result m c) := by
  have hN : t.val < 64 := lt_of_lt_of_eq t.isLt N_0
  have h1 : t.val % 8 = 7 := (flush0_4 t).mp hf
  have hi := Blocks.outIndex t
  rw [Value.flushed4]
  refine funext fun (y : S1024x256.Idx) => ?_
  obtain ⟨p, q, rfl⟩ : ∃ (p : Fin 1024) (q : Fin 256), y = ix2 p q := ⟨y 0, y 1, eq_ix2 y⟩
  rw [View.read_apply]
  show (outsAt0 m c t.val t.isLt).1 (ix2 p q) = result m c (((cfg0.win 4).blk t).view.emb (ix2 p q))
  rw [out_apply m c t h1 p q]
  have hemb : ((cfg0.win 4).blk t).view.emb (ix2 p q) = ix2 (rowOf (t.val / 8) p.val) q := funext fun a => Fin.ext (by
    match a with
    | ⟨0, _⟩ =>
      show win0_4.index t (0 : Fin 2) * 1024 + 1 * p.val = (rowOf (t.val / 8) p.val).val
      rw [hi.1, Fold.rowOf_val _ _ (by omega) p.isLt]; omega
    | ⟨1, _⟩ => show win0_4.index t (1 : Fin 2) * 256 + 1 * q.val = q.val; rw [hi.2]; omega)
  rw [hemb]
  rfl

/-- Every entry of the result is in the block of a writing point: row r is written at point 8·(r / 1024) + 7. -/
theorem cover (i : S8192x256.Idx) : ∃ t : Fin cfg0.N, (cfg0.win 4).flush t = true ∧ i ∈ ((cfg0.win 4).blk t).view.set := by
  have h0 : (i 0).val < 8192 := (i 0).isLt
  have h1 : (i 1).val < 256 := (i 1).isLt
  have hN : cfg0.N = 64 := N_0
  let t : Fin cfg0.N := ⟨8 * ((i 0).val / 1024) + 7, by rw [hN]; omega⟩
  have ht : t.val = 8 * ((i 0).val / 1024) + 7 := rfl
  have hi := Blocks.outIndex t
  refine ⟨t, (flush0_4 t).mpr (by rw [ht]; omega), ?_⟩
  rw [mem_blk]
  intro a
  match a with
  | ⟨0, _⟩ =>
    show win0_4.index t (0 : Fin 2) * 1024 ≤ (i 0).val ∧ (i 0).val < win0_4.index t (0 : Fin 2) * 1024 + 1024
    rw [hi.1, ht]; omega
  | ⟨1, _⟩ =>
    show win0_4.index t (1 : Fin 2) * 256 ≤ (i 1).val ∧ (i 1).val < win0_4.index t (1 : Fin 2) * 256 + 256
    rw [hi.2]; omega

/-- The result array after the run. -/
theorem final (c : Dev nD) : (dats m 0 c).arrAt 4 cfg0.N = result m c :=
  (dats m 0 c).arrAt_eq_of_cover 4 (result m c) (flushed_eq m c) cover

/-- The kernel's run: it terminates without a fault with the result at the fused arrangement of the arguments,
    which it leaves unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RefValue

end
-- ==== Proof.RefValue.lean ====
/-
  The reference's result is the normalised arrangement of the specification: reading its last operation back
  through the generated one-operation-at-a-time lemmas, entry (r, h) is
      tanh( Σ_c ((A[r,c] + I[r,c]) / d[r]) · S[c,h] + b[h] ),   d[r] = Σ_c (A[r,c] + I[r,c]),  S = X·W,
  where the identity entry I[r,c] is the comparison "row index = column index" converted to a float.
-/
import proofs.«132413_j75728863363703_2_alg».proof.Proof.Gen.ReferenceIdeal.Read
import proofs.«132413_j75728863363703_2_alg».proof.Proof.Spec
import proofs.«132413_j75728863363703_2_alg».proof.Proof.PreFacts

noncomputable section

namespace Cert.ReferenceIdeal.RefValue

open Cert.ReferenceIdeal Cert.ReferenceIdeal.Gen Cert.ReferenceIdeal.Read Idealize.ShloMosaic Idealize.ShloMosaic.ValueIdx

/-- The adjacency with self loops, at (r, c). -/
theorem withLoops_apply (A : (⟨S8192x8192, .f32⟩ : BufTy).Contents (Elt Ideal)) (r c : Fin 8192) :
    val_main_v6 (F := Ideal) A (ix2 r c) = A (ix2 r c) + Cert.Gcn.eye r c :=
  congrArg (A (ix2 r c) + ·) (Cert.Gcn.PreFacts.eye_word r c)

/-- The degree vector at r. -/
theorem degree_apply (A : (⟨S8192x8192, .f32⟩ : BufTy).Contents (Elt Ideal)) (r : Fin 8192) :
    val_main_v7 (F := Ideal) A (ix1 r) = Cert.Gcn.degree A r :=
  Cert.Gcn.PreFacts.rowsum_eq_degree A _ _ _ r

/-- The row-normalised adjacency at (r, c). -/
theorem rowNormalized_apply (A : (⟨S8192x8192, .f32⟩ : BufTy).Contents (Elt Ideal)) (r c : Fin 8192) :
    val_main_v10 (F := Ideal) A (ix2 r c) = Ideal.div (A (ix2 r c) + Cert.Gcn.eye r c) (Cert.Gcn.degree A r) := by
  rw [val_main_v10_apply, val_main_v9_apply, val_main_v8_apply]
  have hi : idx_main_v8 (idx_main_v9 (ix2 r c)) = ix1 r := funext fun a => Fin.ext (by
    match a with
    | ⟨0, _⟩ => rfl)
  rw [hi, degree_apply, withLoops_apply]
  rfl

/-- The support at (c, h). -/
theorem support_apply (X : (⟨S8192x256, .f32⟩ : BufTy).Contents (Elt Ideal)) (W : (⟨S256x256, .f32⟩ : BufTy).Contents (Elt Ideal))
    (c : Fin 8192) (h : Fin 256) : val_main_v11 (F := Ideal) X W (ix2 c h) = Cert.Gcn.support X W c h := by
  rw [val_main_v11_apply]
  unfold Cert.Gcn.support
  refine Finset.sum_congr rfl fun j _ => ?_
  have hl : lidx_main_v11 (ix2 c h) j = ix2 c j := funext fun a => Fin.ext (by
    match a with
    | ⟨0, _⟩ => rfl
    | ⟨1, _⟩ => rfl)
  have hr : ridx_main_v11 (ix2 c h) j = ix2 j h := funext fun a => Fin.ext (by
    match a with
    | ⟨0, _⟩ => rfl
    | ⟨1, _⟩ => rfl)
  rw [hl, hr]

/-- The reference's result is the normalised arrangement. -/
theorem result_eq (X : (⟨S8192x256, .f32⟩ : BufTy).Contents (Elt Ideal)) (A : (⟨S8192x8192, .f32⟩ : BufTy).Contents (Elt Ideal))
    (W : (⟨S256x256, .f32⟩ : BufTy).Contents (Elt Ideal)) (b : (⟨S256, .f32⟩ : BufTy).Contents (Elt Ideal)) :
    val_main_v16 (F := Ideal) X A W b = Cert.Gcn.normalized X A W b := by
  funext i
  obtain ⟨r, h, rfl⟩ : ∃ (r : Fin 8192) (h : Fin 256), i = ix2 r h := ⟨i 0, i 1, eq_ix2 i⟩
  rw [val_main_v16_apply, val_main_v15_apply, val_main_v12_apply, val_main_v14_apply, val_main_v13_apply]
  have hb : idx_main_v13 (idx_main_v14 (ix2 r h)) = ix1 h := funext fun a => Fin.ext (by
    match a with
    | ⟨0, _⟩ => rfl)
  rw [hb]
  show Ideal.tanh ((∑ k : Fin 8192, val_main_v10 (F := Ideal) A (lidx_main_v12 (ix2 r h) k)
      * val_main_v11 (F := Ideal) X W (ridx_main_v12 (ix2 r h) k)) + b (ix1 h)) = Cert.Gcn.normalizedAt X A W b r h
  unfold Cert.Gcn.normalizedAt
  refine congrArg (fun s => Ideal.tanh (s + b (ix1 h))) (Finset.sum_congr rfl fun k _ => ?_)
  have hl : lidx_main_v12 (ix2 r h) k = ix2 r k := funext fun a => Fin.ext (by
    match a with
    | ⟨0, _⟩ => rfl
    | ⟨1, _⟩ => rfl)
  have hr : ridx_main_v12 (ix2 r h) k = ix2 k h := funext fun a => Fin.ext (by
    match a with
    | ⟨0, _⟩ => rfl
    | ⟨1, _⟩ => rfl)
  rw [hl, hr, rowNormalized_apply, support_apply]

end Cert.ReferenceIdeal.RefValue

end
-- ==== Proof.lean ====
/-
  A fused dense graph-convolution kernel against its plain reference, equal over the extended reals.

  Both programs compute  out = tanh( D⁻¹ (A + I) (X W) + b )  for node features X [8192, 256], adjacency A
  [8192, 8192], weights W [256, 256] and bias b [256], with D the diagonal of the row sums of A + I.

  * The reference forms A + I, divides every entry of row r by that row's sum d[r], and contracts with S = X W.
  * The kernel streams A once in 1024 × 1024 blocks. For each block of 1024 rows it walks the eight column blocks,
    accumulating the rows of A S and the row sums of A; the self loop is added at the end as S's own rows in the
    numerator and as + 1 in the denominator, with ONE division per entry:
        tanh( (Σ_c A[r,c] S[c,h] + S[r,h]) / (Σ_c A[r,c] + 1) + b[h] ).

  The two agree because, on real entries with d[r] ≠ 0, the quotient is the real quotient and distributes over the
  finite sum; the order and grouping of the sums is immaterial. That is where the precondition is used: every input
  entry finite (a real number), and no row sum of A + I equal to zero — outside that domain the reference itself
  divides by zero. Changes of float format inside the kernel are the identity on the extended reals, a matrix
  product into a zero accumulator is the plain sum of products, and a lane reduction is the plain sum.

  The modules: Spec (both arrangements as functions of the four arrays), Algebra (they agree; a sum over 8192
  columns is the sum over 8 blocks of 1024), PreFacts (what the precondition gives), KernelPieces / KernelSteps
  (which store of the body wrote what), KernelPayloads (the body's arithmetic at one entry), KernelBlocks (the
  blocks as pieces of the arrays), KernelFold (the carried buffers after each grid point, by induction),
  KernelValue (the result array and the kernel's run), RefValue (the reference's result).
-/
import proofs.«132413_j75728863363703_2_alg».proof.Defs
import proofs.«132413_j75728863363703_2_alg».proof.Proof.Gen.Kernel
import proofs.«132413_j75728863363703_2_alg».proof.Proof.Gen.Kernel.Skeleton
import proofs.«132413_j75728863363703_2_alg».proof.Proof.Gen.Kernel.Launch
import proofs.«132413_j75728863363703_2_alg».proof.Proof.Gen.Kernel.Points
import proofs.«132413_j75728863363703_2_alg».proof.Proof.Gen.Kernel.Frame
import proofs.«132413_j75728863363703_2_alg».proof.Proof.Gen.KernelIdeal
import proofs.«132413_j75728863363703_2_alg».proof.Proof.Gen.KernelIdeal.Skeleton
import proofs.«132413_j75728863363703_2_alg».proof.Proof.Gen.KernelIdeal.Launch
import proofs.«132413_j75728863363703_2_alg».proof.Proof.Gen.KernelIdeal.Points
import proofs.«132413_j75728863363703_2_alg».proof.Proof.Gen.KernelIdeal.Frame
import proofs.«132413_j75728863363703_2_alg».proof.Proof.Gen.KernelIdeal.Value
import proofs.«132413_j75728863363703_2_alg».proof.Proof.Gen.ReferenceIdeal.Run
import proofs.«132413_j75728863363703_2_alg».proof.Proof.Gen.ReferenceIdeal.Read
import proofs.«132413_j75728863363703_2_alg».proof.Proof.Gen.ReferenceIdeal
import proofs.«132413_j75728863363703_2_alg».proof.Proof.Gen.Pre_finite_inputs
import proofs.«132413_j75728863363703_2_alg».proof.Proof.Spec
import proofs.«132413_j75728863363703_2_alg».proof.Proof.Algebra
import proofs.«132413_j75728863363703_2_alg».proof.Proof.PreFacts
import proofs.«132413_j75728863363703_2_alg».proof.Proof.KernelValue
import proofs.«132413_j75728863363703_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, the kernel ends at the fused arrangement and the reference at the
    normalised one; under the precondition every entry is real and no degree is zero, so they are one array. -/
theorem algebraic : Cert.algebraic_KernelIdeal_ReferenceIdeal := by
  intro m ρ m' ρ' hpre hagree
  refine ⟨fun c => Cert.KernelIdeal.RefValue.result m c, Cert.KernelIdeal.RefValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq _ _ _ _).trans ?_
  rw [Cert.ReferenceIdeal.RefValue.result_eq, (hagree c).1, (hagree c).2.1, (hagree c).2.2.1, (hagree c).2.2.2]
  obtain ⟨hX, hA, hW, hb, hd⟩ := Cert.Gcn.domain_of_pre _ _ _ _ (hpre c)
  exact (Cert.Gcn.fused_eq_normalized _ _ _ _ hX hA hW hb hd).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
